-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256x16 : Shape := ⟨3, ![1024, 256, 16]⟩
abbrev S256x16x64 : Shape := ⟨3, ![256, 16, 64]⟩
abbrev S256x16 : Shape := ⟨2, ![256, 16]⟩
abbrev S_ : Shape := ⟨0, ![]⟩

class Facts : Prop where
  bcast_S_S1024x256x16 : S_.BroadcastsInDim S1024x256x16 (![] : Fin 0 → Fin S1024x256x16.rank)
  reducesTo_S1024x256x16_S_d0_1_2 : S1024x256x16.ReducesTo [0, 1, 2] S_
  h_S_ : 0 < S_.numel
  bcast_S_S256x16x64 : S_.BroadcastsInDim S256x16x64 (![] : Fin 0 → Fin S256x16x64.rank)
  reducesTo_S256x16x64_S_d0_1_2 : S256x16x64.ReducesTo [0, 1, 2] S_
  bcast_S_S256x16 : S_.BroadcastsInDim S256x16 (![] : Fin 0 → Fin S256x16.rank)
  reducesTo_S256x16_S_d0_1 : S256x16.ReducesTo [0, 1] S_

variable [Facts]

def fn_part1 {F : FTy → Type} [FloatOps F] (main_v13 : IVec S_ 1) (main_v16 : IVec S256x16x64 1) : IVec S_ 1 :=
  let main_c_5 : IVec S_ 1 := constantI S_ 1 1#1
  let main_v17 : IVec S_ 1 := (fun x v => Host.reduce IntOp.andi x v reducesTo_S256x16x64_S_d0_1_2 h_S_) main_v16 main_c_5
  let main_v18 : IVec S_ 1 := andi main_v13 main_v17
  main_v18

def fn {F : FTy → Type} [FloatOps F] (main_arg0 : FVec F S1024x256x16 .f32) (main_arg1 : FVec F S256x16x64 .f32) (main_arg2 : FVec F S256x16 .f32) (main_arg3 : FVec F S256x16x64 .f32) : IVec S_ 1 :=
  let main_v0 : FVec F S1024x256x16 .f32 := Host.absf main_arg0
  let main_cst : FVec F S_ .f32 := constant S_ .f32 0x7F800000#32
  let main_v1 : FVec F S1024x256x16 .f32 := broadcastInDim S1024x256x16 ![] bcast_S_S1024x256x16 main_cst
  let main_v2 : IVec S1024x256x16 1 := cmpf .olt main_v0 main_v1
  let main_c : IVec S_ 1 := constantI S_ 1 1#1
  let main_v3 : IVec S_ 1 := (fun x v => Host.reduce IntOp.andi x v reducesTo_S1024x256x16_S_d0_1_2 h_S_) main_v2 main_c
  let main_v4 : FVec F S256x16x64 .f32 := Host.absf main_arg1
  let main_cst_0 : FVec F S_ .f32 := constant S_ .f32 0x7F800000#32
  let main_v5 : FVec F S256x16x64 .f32 := broadcastInDim S256x16x64 ![] bcast_S_S256x16x64 main_cst_0
  let main_v6 : IVec S256x16x64 1 := cmpf .olt main_v4 main_v5
  let main_c_1 : IVec S_ 1 := constantI S_ 1 1#1
  let main_v7 : IVec S_ 1 := (fun x v => Host.reduce IntOp.andi x v reducesTo_S256x16x64_S_d0_1_2 h_S_) main_v6 main_c_1
  let main_v8 : IVec S_ 1 := andi main_v3 main_v7
  let main_v9 : FVec F S256x16 .f32 := Host.absf main_arg2
  let main_cst_2 : FVec F S_ .f32 := constant S_ .f32 0x7F800000#32
  let main_v10 : FVec F S256x16 .f32 := broadcastInDim S256x16 ![] bcast_S_S256x16 main_cst_2
  let main_v11 : IVec S256x16 1 := cmpf .olt main_v9 main_v10
  let main_c_3 : IVec S_ 1 := constantI S_ 1 1#1
  let main_v12 : IVec S_ 1 := (fun x v => Host.reduce IntOp.andi x v reducesTo_S256x16_S_d0_1 h_S_) main_v11 main_c_3
  let main_v13 : IVec S_ 1 := andi main_v8 main_v12
  let main_v14 : FVec F S256x16x64 .f32 := Host.absf main_arg3
  let main_cst_4 : FVec F S_ .f32 := constant S_ .f32 0x7F800000#32
  let main_v15 : FVec F S256x16x64 .f32 := broadcastInDim S256x16x64 ![] bcast_S_S256x16x64 main_cst_4
  let main_v16 : IVec S256x16x64 1 := cmpf .olt main_v14 main_v15
  fn_part1 (F := F) main_v13 main_v16
-- ==== Kernel.lean ====
abbrev S1024x256x16 : Shape := ⟨3, ![1024, 256, 16]⟩
abbrev S256x16x64 : Shape := ⟨3, ![256, 16, 64]⟩
abbrev S256x16 : Shape := ⟨2, ![256, 16]⟩
abbrev S256x16x1024 : Shape := ⟨3, ![256, 16, 1024]⟩
abbrev S128x16x128 : Shape := ⟨3, ![128, 16, 128]⟩
abbrev S128x16x64 : Shape := ⟨3, ![128, 16, 64]⟩
abbrev S128x16 : Shape := ⟨2, ![128, 16]⟩
abbrev S8x16x128 : Shape := ⟨3, ![8, 16, 128]⟩
abbrev S8x16x64 : Shape := ⟨3, ![8, 16, 64]⟩
abbrev S8x16 : Shape := ⟨2, ![8, 16]⟩
abbrev S8x16x1x128 : Shape := ⟨4, ![8, 16, 1, 128]⟩
abbrev S8x16x64x1 : Shape := ⟨4, ![8, 16, 64, 1]⟩
abbrev S8x16x64x128 : Shape := ⟨4, ![8, 16, 64, 128]⟩
abbrev S8x16x1x1 : Shape := ⟨4, ![8, 16, 1, 1]⟩
abbrev S128x16x1 : Shape := ⟨3, ![128, 16, 1]⟩
abbrev S_ : Shape := ⟨0, ![]⟩
abbrev S16 : Shape := ⟨1, ![16]⟩

abbrev nBuf : Space → Nat
  | .hbm => 17
  | .vmem => 11
  | .smem => 0
  | _ => 0

abbrev bufTy : (tb : Table) → Fin (tcTables nBuf tb) → BufTy
  | .hbm, ⟨0, _⟩ => ⟨S1024x256x16, .f32⟩
  | .hbm, ⟨1, _⟩ => ⟨S256x16x64, .f32⟩
  | .hbm, ⟨2, _⟩ => ⟨S256x16, .f32⟩
  | .hbm, ⟨3, _⟩ => ⟨S256x16x64, .f32⟩
  | .hbm, ⟨4, _⟩ => ⟨S256x16x1024, .f32⟩
  | .hbm, ⟨5, _⟩ => ⟨S256x16, .f32⟩
  | .hbm, ⟨6, _⟩ => ⟨S_, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S128x16x128, .f32⟩
  | .local _ .vmem, ⟨1, _⟩ => ⟨S128x16x128, .f32⟩
  | .local _ .vmem, ⟨2, _⟩ => ⟨S128x16x64, .f32⟩
  | .local _ .vmem, ⟨3, _⟩ => ⟨S128x16x64, .f32⟩
  | .local _ .vmem, ⟨4, _⟩ => ⟨S128x16, .f32⟩
  | .local _ .vmem, ⟨5, _⟩ => ⟨S128x16, .f32⟩
  | .local _ .vmem, ⟨6, _⟩ => ⟨S128x16x64, .f32⟩
  | .local _ .vmem, ⟨7, _⟩ => ⟨S128x16x64, .f32⟩
  | .local _ .vmem, ⟨8, _⟩ => ⟨S128x16, .f32⟩
  | .local _ .vmem, ⟨9, _⟩ => ⟨S128x16, .f32⟩
  | .local _ .vmem, ⟨10, _⟩ => ⟨S128x16x64, .f32⟩
  | _, _ => ⟨S1024x256x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_mult1 (k0_t1 : Fin k0_t1_loop.trips) : BitVec 32 :=
  let c0_i32_5 : BitVec 32 := 0#32
  let c0_i32_1 : BitVec 32 := 0#32
  let c1_i32 : BitVec 32 := 1#32
  let arg8 : BitVec 32 := Scf.iv c0_i32_1 c1_i32 k0_t1
  let c1_i32_4 : BitVec 32 := 1#32
  let v7 : BitVec 32 := Scalar.muli arg8 c1_i32_4
  let v8 : BitVec 32 := Scalar.addi c0_i32_5 v7
  let c8_i32 : BitVec 32 := 8#32
  let v9 : BitVec 32 := Scalar.muli v8 c8_i32
  v9
def k0_off1 (k0_t1 : Fin k0_t1_loop.trips) : Fin 3 → Nat :=
  let c0_i32_5 : BitVec 32 := 0#32
  let c0_i32_1 : BitVec 32 := 0#32
  let c1_i32 : BitVec 32 := 1#32
  let arg8 : BitVec 32 := Scf.iv c0_i32_1 c1_i32 k0_t1
  let c1_i32_4 : BitVec 32 := 1#32
  let v7 : BitVec 32 := Scalar.muli arg8 c1_i32_4
  let v8 : BitVec 32 := Scalar.addi c0_i32_5 v7
  let c8_i32 : BitVec 32 := 8#32
  let v9 : BitVec 32 := Scalar.muli v8 c8_i32
  let v10 : BitVec 32 := v9
  let v11 : Index := Scalar.indexCast v10
  let c0 : Index := 0#32
  let c0_6 : Index := 0#32
  ![v11.toNat, 0, 0]
def k0_off2 (k0_t1 : Fin k0_t1_loop.trips) : Fin 3 → Nat :=
  let c0_i32_5 : BitVec 32 := 0#32
  let c0_i32_1 : BitVec 32 := 0#32
  let c1_i32 : BitVec 32 := 1#32
  let arg8 : BitVec 32 := Scf.iv c0_i32_1 c1_i32 k0_t1
  let c1_i32_4 : BitVec 32 := 1#32
  let v7 : BitVec 32 := Scalar.muli arg8 c1_i32_4
  let v8 : BitVec 32 := Scalar.addi c0_i32_5 v7
  let c8_i32 : BitVec 32 := 8#32
  let v9 : BitVec 32 := Scalar.muli v8 c8_i32
  let v10 : BitVec 32 := v9
  let v14 : Index := Scalar.indexCast v10
  let c0_7 : Index := 0#32
  let c0_8 : Index := 0#32
  ![v14.toNat, 0, 0]
def k0_off3 (k0_t1 : Fin k0_t1_loop.trips) : Fin 2 → Nat :=
  let c0_i32_5 : BitVec 32 := 0#32
  let c0_i32_1 : BitVec 32 := 0#32
  let c1_i32 : BitVec 32 := 1#32
  let arg8 : BitVec 32 := Scf.iv c0_i32_1 c1_i32 k0_t1
  let c1_i32_4 : BitVec 32 := 1#32
  let v7 : BitVec 32 := Scalar.muli arg8 c1_i32_4
  let v8 : BitVec 32 := Scalar.addi c0_i32_5 v7
  let c8_i32 : BitVec 32 := 8#32
  let v9 : BitVec 32 := Scalar.muli v8 c8_i32
  let v10 : BitVec 32 := v9
  let v16 : Index := Scalar.indexCast v10
  let c0_9 : Index := 0#32
  ![v16.toNat, 0]
def k0_cond2 (i : grid0.Coords) : BitVec 1 :=
  let arg1 : BitVec 32 := BitVec.ofNat 32 (i 1).val
  let c7_i32 : BitVec 32 := 7#32
  let v4 : BitVec 1 := Scalar.cmpi .eq arg1 c7_i32
  let v5 : BitVec 32 := Scalar.extui v4
  let c0_i32_3 : BitVec 32 := 0#32
  let v6 : BitVec 1 := Scalar.cmpi .ne v5 c0_i32_3
  v6

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x16x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x16x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S1024x256x16_S256x16x1024_1_2_0 : S1024x256x16.Transposes [1, 2, 0] S256x16x1024
  inb_S128x16x64_S128x16x64_0_0_0 : ∀ a, (![0, 0, 0] : Fin 3 → Nat) a + S128x16x64.size a ≤ S128x16x64.size a
  h_S128x16x64 : 0 < S128x16x64.numel
  shapeCasts_S128x16x64_S128x16x64 : S128x16x64.ShapeCasts S128x16x64
  h_S8x16x128 : 0 < S8x16x128.numel
  shapeCasts_S8x16x128_S8x16x128 : S8x16x128.ShapeCasts S8x16x128
  h_S8x16x64 : 0 < S8x16x64.numel
  h_S8x16 : 0 < S8x16.numel
  shapeCasts_S8x16x128_S8x16x1x128 : S8x16x128.ShapeCasts S8x16x1x128
  shapeCasts_S8x16x64_S8x16x64x1 : S8x16x64.ShapeCasts S8x16x64x1
  broadcasts_S8x16x1x128_S8x16x64x128 : S8x16x1x128.Broadcasts S8x16x64x128
  broadcasts_S8x16x64x1_S8x16x64x128 : S8x16x64x1.Broadcasts S8x16x64x128
  shapeCasts_S8x16_S8x16x1x1 : S8x16.ShapeCasts S8x16x1x1
  broadcasts_S8x16x1x1_S8x16x64x128 : S8x16x1x1.Broadcasts S8x16x64x128
  natLt_1_32 : 1 < 32
  reduces_S8x16x64x128_S8x16x64 : S8x16x64x128.Reduces [3] S8x16x64
  shapeCasts_S8x16x64_S8x16x64 : S8x16x64.ShapeCasts S8x16x64
  inb_S128x16_S128x16_0_0 : ∀ a, (![0, 0] : Fin 2 → Nat) a + S128x16.size a ≤ S128x16.size a
  h_S128x16 : 0 < S128x16.numel
  shapeCasts_S128x16_S128x16x1 : S128x16.ShapeCasts S128x16x1
  broadcasts_S128x16x1_S128x16x64 : S128x16x1.Broadcasts S128x16x64
  reduces_S128x16x64_S128x16 : S128x16x64.Reduces [2] S128x16
  reducesTo_S256x16_S16_d0 : S256x16.ReducesTo [0] S16
  h_S_ : 0 < S_.numel
  bcast_S_S16 : S_.BroadcastsInDim S16 (![] : Fin 0 → Fin S16.rank)
  reducesTo_S16_S_d0 : S16.ReducesTo [0] S_
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S8x16x128.size a ≤ S128x16x128.size a
  k0_off2_inb : ∀ k0_t1 : Fin k0_t1_loop.trips, ∀ a, (k0_off2 k0_t1) a + S8x16x64.size a ≤ S128x16x64.size a
  k0_off3_inb : ∀ k0_t1 : Fin k0_t1_loop.trips, ∀ a, (k0_off3 k0_t1) a + S8x16.size a ≤ S128x16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16x128.size a ≤ S256x16x1024.size a
  hwx0_0 : ∀ i : grid0.Coords, EltTy.bits .f32 = 32 ∨ (Rect.block (s := S256x16x1024) S128x16x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x16x64.size a ≤ S256x16x64.size a
  hwx0_1 : ∀ i : grid0.Coords, EltTy.bits .f32 = 32 ∨ (Rect.block (s := S256x16x64) S128x16x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S256x16.size a
  hwx0_2 : ∀ i : grid0.Coords, EltTy.bits .f32 = 32 ∨ (Rect.block (s := S256x16) S128x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x16x64.size a ≤ S256x16x64.size a
  hwx0_3 : ∀ i : grid0.Coords, EltTy.bits .f32 = 32 ∨ (Rect.block (s := S256x16x64) S128x16x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x16.size a ≤ S256x16.size a
  hwx0_4 : ∀ i : grid0.Coords, EltTy.bits .f32 = 32 ∨ (Rect.block (s := S256x16) S128x16.size (cc0_transform_4 i) (hinb0_4 i)).WholeWords (EltTy.packing .f32)

variable [Facts₀]

abbrev win0_0 : Pipeline.Window sig grid0 :=
  Pipeline.Window.ofSpec (Memref.whole main_v0) S128x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x16x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x16x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1024x256x16 : Shape := ⟨3, ![1024, 256, 16]⟩
abbrev S256x16x64 : Shape := ⟨3, ![256, 16, 64]⟩
abbrev S256x16 : Shape := ⟨2, ![256, 16]⟩
abbrev S1024x256x16x1 : Shape := ⟨4, ![1024, 256, 16, 1]⟩
abbrev S1x256x16x64 : Shape := ⟨4, ![1, 256, 16, 64]⟩
abbrev S1024x256x16x64 : Shape := ⟨4, ![1024, 256, 16, 64]⟩
abbrev S1x256x16x1 : Shape := ⟨4, ![1, 256, 16, 1]⟩
abbrev S_ : Shape := ⟨0, ![]⟩
abbrev S256x16x1 : Shape := ⟨3, ![256, 16, 1]⟩
abbrev S16 : Shape := ⟨1, ![16]⟩

abbrev nBuf : Space → Nat
  | .hbm => 43
  | .vmem => 0
  | .smem => 0
  | _ => 0

abbrev bufTy : (tb : Table) → Fin (tcTables nBuf tb) → BufTy
  | .hbm, ⟨0, _⟩ => ⟨S1024x256x16, .f32⟩
  | .hbm, ⟨1, _⟩ => ⟨S256x16x64, .f32⟩
  | .hbm, ⟨2, _⟩ => ⟨S256x16, .f32⟩
  | .hbm, ⟨3, _⟩ => ⟨S256x16x64, .f32⟩
  | .hbm, ⟨4, _⟩ => ⟨S1024x256x16x1, .f32⟩
  | .hbm, ⟨5, _⟩ => ⟨S1x256x16x64, .f32⟩
  | .hbm, ⟨6, _⟩ => ⟨S1024x256x16x64, .f32⟩
  | .hbm, ⟨7, _⟩ => ⟨S1024x256x16x64, .f32⟩
  | .hbm, ⟨8, _⟩ => ⟨S1024x256x16x64, .f32⟩
  | .hbm, ⟨9, _⟩ => ⟨S1024x256x16x64, .f32⟩
  | .hbm, ⟨10, _⟩ => ⟨S1x256x16x1, .f32⟩
  | .hbm, ⟨11, _⟩ => ⟨S_, .f32⟩
  | .hbm, ⟨12, _⟩ => ⟨S1x256x16x1, .f32⟩
  | .hbm, ⟨13, _⟩ => ⟨S1x256x16x1, .f32⟩
  | .hbm, ⟨14, _⟩ => ⟨S1024x256x16x64, .f32⟩
  | .hbm, ⟨15, _⟩ => ⟨S1024x256x16x64, .i1⟩
  | .hbm, ⟨16, _⟩ => ⟨S1024x256x16x64, .f32⟩
  | .hbm, ⟨17, _⟩ => ⟨S_, .f32⟩
  | .hbm, ⟨18, _⟩ => ⟨S256x16x64, .f32⟩
  | .hbm, ⟨19, _⟩ => ⟨S_, .f32⟩
  | .hbm, ⟨20, _⟩ => ⟨S256x16x64, .f32⟩
  | .hbm, ⟨21, _⟩ => ⟨S256x16x64, .f32⟩
  | .hbm, ⟨22, _⟩ => ⟨S256x16x1, .f32⟩
  | .hbm, ⟨23, _⟩ => ⟨S256x16x64, .f32⟩
  | .hbm, ⟨24, _⟩ => ⟨S256x16x64, .f32⟩
  | .hbm, ⟨25, _⟩ => ⟨S256x16x64, .f32⟩
  | .hbm, ⟨26, _⟩ => ⟨S256x16x64, .f32⟩
  | .hbm, ⟨27, _⟩ => ⟨S_, .f32⟩
  | .hbm, ⟨28, _⟩ => ⟨S256x16, .f32⟩
  | .hbm, ⟨29, _⟩ => ⟨S_, .f32⟩
  | .hbm, ⟨30, _⟩ => ⟨S256x16, .f32⟩
  | .hbm, ⟨31, _⟩ => ⟨S256x16, .f32⟩
  | .hbm, ⟨32, _⟩ => ⟨S_, .f32⟩
  | .hbm, ⟨33, _⟩ => ⟨S16, .f32⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S1024x256x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S1024x256x16_S1024x256x16x1_0_1_2 : S1024x256x16.BroadcastsInDim S1024x256x16x1 (![0, 1, 2] : Fin 3 → Fin S1024x256x16x1.rank)
  bcast_S256x16x64_S1x256x16x64_1_2_3 : S256x16x64.BroadcastsInDim S1x256x16x64 (![1, 2, 3] : Fin 3 → Fin S1x256x16x64.rank)
  bcast_S1024x256x16x1_S1024x256x16x64_0_1_2_3 : S1024x256x16x1.BroadcastsInDim S1024x256x16x64 (![0, 1, 2, 3] : Fin 4 → Fin S1024x256x16x64.rank)
  bcast_S1x256x16x64_S1024x256x16x64_0_1_2_3 : S1x256x16x64.BroadcastsInDim S1024x256x16x64 (![0, 1, 2, 3] : Fin 4 → Fin S1024x256x16x64.rank)
  bcast_S256x16_S1x256x16x1_1_2 : S256x16.BroadcastsInDim S1x256x16x1 (![1, 2] : Fin 2 → Fin S1x256x16x1.rank)
  bcast_S_S1x256x16x1 : S_.BroadcastsInDim S1x256x16x1 (![] : Fin 0 → Fin S1x256x16x1.rank)
  bcast_S1x256x16x1_S1024x256x16x64_0_1_2_3 : S1x256x16x1.BroadcastsInDim S1024x256x16x64 (![0, 1, 2, 3] : Fin 4 → Fin S1024x256x16x64.rank)
  reducesTo_S1024x256x16x64_S256x16x64_d0 : S1024x256x16x64.ReducesTo [0] S256x16x64
  h_S_ : 0 < S_.numel
  bcast_S_S256x16x64 : S_.BroadcastsInDim S256x16x64 (![] : Fin 0 → Fin S256x16x64.rank)
  bcast_S256x16_S256x16x1_0_1 : S256x16.BroadcastsInDim S256x16x1 (![0, 1] : Fin 2 → Fin S256x16x1.rank)
  bcast_S256x16x1_S256x16x64_0_1_2 : S256x16x1.BroadcastsInDim S256x16x64 (![0, 1, 2] : Fin 3 → Fin S256x16x64.rank)
  reducesTo_S256x16x64_S256x16_d2 : S256x16x64.ReducesTo [2] S256x16
  bcast_S_S256x16 : S_.BroadcastsInDim S256x16 (![] : Fin 0 → Fin S256x16.rank)
  reducesTo_S256x16_S16_d0 : S256x16.ReducesTo [0] S16
  bcast_S_S16 : S_.BroadcastsInDim S16 (![] : Fin 0 → Fin S16.rank)
  reducesTo_S16_S_d0 : S16.ReducesTo [0] S_

variable [Facts₀]

class Facts : Prop extends Facts₀ where

variable [Facts]
-- ==== Proof.LibBitSums.lean ====
/-
  Two general facts about indicator sums on the extended reals.

  A comparison's bit turned into a float either way — zero-extended to 32 bits and converted as a signed integer, or
  converted directly as an unsigned one — is the same 0 or 1 (`sitofp_setWidth_bit`).  A sum over `m·n` consecutive
  naturals is the sum of its `m` runs of `n` (`sum_runs`): what lets a count taken block by block meet a count taken
  over the whole range.
-/
import Idealize.ShloMosaic.PureOps.Ideal

noncomputable section

namespace Cert.LibBitSums

open Idealize.ShloMosaic
open scoped BigOperators

/-- A one-bit word widened to 32 bits and read signed is the bit read unsigned: both are 0 or 1. -/
theorem bit_toInt : ∀ b : BitVec 1, (b.setWidth 32).toInt = (b.toNat : ℤ) := by decide

/-- At the ideal instance, converting a one-bit word widened to 32 bits as a signed integer gives the same extended real
    as converting the bit as an unsigned integer (an `extui` then `sitofp` against a direct `uitofp`). -/
theorem sitofp_setWidth_bit (b : BitVec 1) :
    FloatOps.sitofp (F := Ideal) .f32 (b.setWidth 32) = FloatOps.uitofp (F := Ideal) .f32 b := by
  show (((b.setWidth 32).toInt : ℝ) : EReal) = ((b.toNat : ℝ) : EReal)
  rw [bit_toInt b]; norm_cast

/-- A sum over `m·n` consecutive naturals is the sum of its `m` runs of `n`: position `n·s + l` is run `s`, place `l`. -/
theorem sum_runs {M : Type*} [AddCommMonoid M] (m n : ℕ) (f : ℕ → M) :
    ∑ s ∈ Finset.range m, ∑ l : Fin n, f (n * s + l.val) = ∑ b : Fin (m * n), f b.val := by
  rw [Finset.sum_range (fun s => ∑ l : Fin n, f (n * s + l.val))]
  rw [← Equiv.sum_comp (finProdFinEquiv (m := m) (n := n)) (fun b : Fin (m * n) => f b.val)]
  rw [Fintype.sum_prod_type]
  refine Finset.sum_congr rfl fun s _ => Finset.sum_congr rfl fun l _ => ?_
  rw [finProdFinEquiv_apply_val, Nat.add_comm]

end Cert.LibBitSums

end
-- ==== Proof.Spec.lean ====
/-
  The histogram loss on the extended reals, scalar by scalar.

  For a sample `a`, a bin centre `l` and a bin width `d` the indicator `hit a l d` is 1 when `|a - l| < d / 2` and 0
  otherwise.  A bin's count is the sum of the indicator over the 1024 samples of the batch; the kernel takes that sum
  as eight partial sums of 128 samples each, which is the same extended real because addition there is commutative and
  associative (`sum_blocks`).
-/
import Idealize.ShloMosaic.PureOps.Ideal
import Idealize.ShloMosaic.Lib.ValueIdx
import proofs.«111479_j76802605187293_2_alg».proof.Proof.LibBitSums

noncomputable section

namespace Cert.HistSpec

open Idealize.ShloMosaic Cert.LibBitSums
open scoped BigOperators

/-- The indicator of `|a - l| < d · ½`, as the extended real 0 or 1: the comparison's bit read unsigned. -/
def hit (a l d : Ideal .f32) : Ideal .f32 :=
  FloatOps.uitofp (F := Ideal) .f32
    (FloatOps.cmpf (F := Ideal) (φ := .f32) .olt (FloatOps.absf (F := Ideal) (φ := .f32) (FloatOps.subf (F := Ideal) (φ := .f32) a l))
      (FloatOps.mulf (F := Ideal) (φ := .f32) d (FloatOps.ofBits (F := Ideal) .f32 0x3F000000#32)))

/-- One bin's deviation: the count over the batch size 1024, over the bin width, against the reference density, in
    absolute value. -/
def dev (cnt d p : Ideal .f32) : Ideal .f32 :=
  FloatOps.absf (F := Ideal) (φ := .f32) (FloatOps.subf (F := Ideal) (φ := .f32)
    (FloatOps.divf (F := Ideal) (φ := .f32)
      (FloatOps.divf (F := Ideal) (φ := .f32) cnt (FloatOps.ofBits (F := Ideal) .f32 0x44800000#32)) d) p)

/-- The mean over the 64 bins of a sum over them. -/
def mean64 (s : Ideal .f32) : Ideal .f32 :=
  FloatOps.divf (F := Ideal) (φ := .f32) s (FloatOps.ofBits (F := Ideal) .f32 0x42800000#32)

/-- THE LOSS OF ONE (row, channel): the mean over the 64 bins of the deviation of the bin's count over the whole batch of
    1024 samples, from the samples `X[b, t, c]`, the centres `L[t, c, k]`, the widths `D[t, c]` and the reference
    densities `Pd[t, c, k]`. -/
def rowLoss (X : (⟨3, ![1024, 256, 16]⟩ : Shape).Idx → Ideal .f32) (L : (⟨3, ![256, 16, 64]⟩ : Shape).Idx → Ideal .f32)
    (D : (⟨2, ![256, 16]⟩ : Shape).Idx → Ideal .f32) (Pd : (⟨3, ![256, 16, 64]⟩ : Shape).Idx → Ideal .f32)
    (i : (⟨2, ![256, 16]⟩ : Shape).Idx) : Ideal .f32 :=
  mean64 (∑ k : Fin 64, dev (∑ b : Fin 1024, hit (X (ValueIdx.ix3 b (i 0) (i 1))) (L (ValueIdx.ix3 (i 0) (i 1) k)) (D i))
    (D i) (Pd (ValueIdx.ix3 (i 0) (i 1) k)))

/-- A sum over 1024 consecutive naturals is the sum of its eight runs of 128. -/
theorem sum_blocks {M : Type*} [AddCommMonoid M] (f : ℕ → M) :
    ∑ s ∈ Finset.range 8, ∑ l : Fin 128, f (128 * s + l.val) = ∑ b : Fin 1024, f b.val :=
  Cert.LibBitSums.sum_runs 8 128 f

end Cert.HistSpec

end
-- ==== Proof.Pay.lean ====
/-
  What the kernel body's stored values are, element by element, on the extended reals.

  The loop's chunk of 8 rows: the scratch's element plus the number of the block's 128 samples that fall in the bin,
  `acc + Σ_l hit (x[j,c,l]) (loc[j,c,k]) (delta[j,c])` (`pay2_apply`).  The last point's output:
  `(Σ_k |acc[r,c,k] / 1024 / delta[r,c] − dens[r,c,k]|) / 64` (`pay3_apply`).  The first point's reset: zero.
-/
import proofs.«111479_j76802605187293_2_alg».proof.Proof.Gen.KernelIdeal.Skeleton
import proofs.«111479_j76802605187293_2_alg».proof.Proof.Spec
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.HistSpec Cert.LibBitSums
open scoped BigOperators

variable {α : Type}

/-- The samples `[8,16,128]` given a unit bin axis and spread over the 64 bins: entry `(j,c,k,l)` is sample `(j,c,l)`. -/
theorem samples_apply (x : S8x16x128.Idx → α) (h0 : S8x16x128.ShapeCasts S8x16x128) (h1 : S8x16x128.ShapeCasts S8x16x1x128)
    (h2 : S8x16x1x128.Broadcasts S8x16x64x128) (j : Fin 8) (c : Fin 16) (k : Fin 64) (l : Fin 128) :
    broadcastTo S8x16x64x128 (shapeCast S8x16x1x128 (shapeCast S8x16x128 x h0) h1) h2 (ix4 j c k l) = x (ix3 j c l) := by
  rw [shapeCast_self]
  rw [broadcastTo_apply _ h2 (ix4 j c k l) (ix4 j c (0 : Fin 1) l) (fun a => match a with
    | ⟨0, _⟩ => rfl | ⟨1, _⟩ => rfl | ⟨2, _⟩ => rfl | ⟨3, _⟩ => rfl)]
  exact shapeCast_apply x h1 _ (ix3 j c l) (by
    rw [Shape.rowMajor_val_three, Shape.rowMajor_val_four]; simp)

/-- The bin centres `[8,16,64]` given a unit sample axis and spread over the 128 samples: entry `(j,c,k,l)` is centre `(j,c,k)`. -/
theorem centres_apply (x : S8x16x64.Idx → α) (h1 : S8x16x64.ShapeCasts S8x16x64x1)
    (h2 : S8x16x64x1.Broadcasts S8x16x64x128) (j : Fin 8) (c : Fin 16) (k : Fin 64) (l : Fin 128) :
    broadcastTo S8x16x64x128 (shapeCast S8x16x64x1 x h1) h2 (ix4 j c k l) = x (ix3 j c k) := by
  rw [broadcastTo_apply _ h2 (ix4 j c k l) (ix4 j c k (0 : Fin 1)) (fun a => match a with
    | ⟨0, _⟩ => rfl | ⟨1, _⟩ => rfl | ⟨2, _⟩ => rfl | ⟨3, _⟩ => rfl)]
  exact shapeCast_apply x h1 _ (ix3 j c k) (by
    rw [Shape.rowMajor_val_three, Shape.rowMajor_val_four]; simp)

/-- The half widths `[8,16]` given unit bin and sample axes and spread over both: entry `(j,c,k,l)` is width `(j,c)`. -/
theorem widths_apply (x : S8x16.Idx → α) (h1 : S8x16.ShapeCasts S8x16x1x1)
    (h2 : S8x16x1x1.Broadcasts S8x16x64x128) (j : Fin 8) (c : Fin 16) (k : Fin 64) (l : Fin 128) :
    broadcastTo S8x16x64x128 (shapeCast S8x16x1x1 x h1) h2 (ix4 j c k l) = x (ix2 j c) := by
  rw [broadcastTo_apply _ h2 (ix4 j c k l) (ix4 j c (0 : Fin 1) (0 : Fin 1)) (fun a => match a with
    | ⟨0, _⟩ => rfl | ⟨1, _⟩ => rfl | ⟨2, _⟩ => rfl | ⟨3, _⟩ => rfl)]
  exact shapeCast_apply x h1 _ (ix2 j c) (by
    rw [Shape.rowMajor_val_two, Shape.rowMajor_val_four]; simp)

/-- The sample coordinate put back on the last axis of a bin's index. -/
theorem lift_lane (h : S8x16x64x128.Reduces [3] S8x16x64) (j : Fin 8) (c : Fin 16) (k : Fin 64) (l : Fin 128) :
    h.lift (ix3 j c k) l = ix4 j c k l :=
  funext fun a => match a with
    | ⟨0, _⟩ => rfl | ⟨1, _⟩ => rfl | ⟨2, _⟩ => rfl | ⟨3, _⟩ => rfl

/-- THE CHUNK'S STORE at `(j, c, k)`: what the scratch held there plus the count of the block's 128 samples of row `j`,
    channel `c` that fall within half a width of bin `k`'s centre. -/
theorem pay2_apply (v12 : Vec Ideal S8x16x128 .f32) (v15 : Vec Ideal S8x16x64 .f32) (v17 : Vec Ideal S8x16 .f32)
    (v33 : Vec Ideal S8x16x64 .f32) (j : Fin 8) (c : Fin 16) (k : Fin 64) :
    k0_pay2 (F := Ideal) v12 v15 v17 v33 (ix3 j c k)
      = v33 (ix3 j c k) + ∑ l : Fin 128, hit (v12 (ix3 j c l)) (v15 (ix3 j c k)) (v17 (ix2 j c)) := by
  unfold k0_pay2
  dsimp only
  rw [shapeCast_self, addf_apply]
  congr 1
  refine (Ideal.multiReduction_add_single _ _ _ _ _ (ix3 j c k)).trans ?_
  show ∑ l : Fin 128, _ = _
  refine Finset.sum_congr rfl fun l _ => ?_
  rw [lift_lane, sitofp_apply, extui_apply, cmpf_apply, sitofp_setWidth_bit]
  unfold hit
  show FloatOps.uitofp .f32 (FloatOps.cmpf .olt (FloatOps.absf (FloatOps.subf (broadcastTo S8x16x64x128 _ _ (ix4 j c k l))
    (broadcastTo S8x16x64x128 _ _ (ix4 j c k l)))) (broadcastTo S8x16x64x128 _ _ (ix4 j c k l))) = _
  rw [samples_apply, centres_apply, widths_apply]
  rfl

/-- The widths `[128,16]` given a unit bin axis and spread over the 64 bins: entry `(r,c,k)` is width `(r,c)`. -/
theorem widths3_apply (x : S128x16.Idx → α) (h1 : S128x16.ShapeCasts S128x16x1) (h2 : S128x16x1.Broadcasts S128x16x64)
    (r : Fin 128) (c : Fin 16) (k : Fin 64) :
    broadcastTo S128x16x64 (shapeCast S128x16x1 x h1) h2 (ix3 r c k) = x (ix2 r c) := by
  rw [broadcastTo_apply _ h2 (ix3 r c k) (ix3 r c (0 : Fin 1)) (fun a => match a with
    | ⟨0, _⟩ => rfl | ⟨1, _⟩ => rfl | ⟨2, _⟩ => rfl)]
  exact shapeCast_apply x h1 _ (ix2 r c) (by
    rw [Shape.rowMajor_val_two, Shape.rowMajor_val_three]; simp)

/-- The bin coordinate put back on the last axis of a (row, channel) index. -/
theorem lift_bin (h : S128x16x64.Reduces [2] S128x16) (r : Fin 128) (c : Fin 16) (k : Fin 64) :
    h.lift (ix2 r c) k = ix3 r c k :=
  funext fun a => match a with
    | ⟨0, _⟩ => rfl | ⟨1, _⟩ => rfl | ⟨2, _⟩ => rfl

/-- THE LAST POINT'S STORE at `(r, c)`: the mean over the 64 bins of each bin's deviation, the count read from the
    scratch `v8`, the width from `v7`, the reference density from `v14`. -/
theorem pay3_apply (v7 : Vec Ideal S128x16 .f32) (v8 v14 : Vec Ideal S128x16x64 .f32) (r : Fin 128) (c : Fin 16) :
    k0_pay3 (F := Ideal) v7 v8 v14 (ix2 r c)
      = mean64 (∑ k : Fin 64, dev (v8 (ix3 r c k)) (v7 (ix2 r c)) (v14 (ix3 r c k))) := by
  unfold k0_pay3
  dsimp only
  rw [divf_apply]
  unfold mean64
  show Ideal.div _ _ = Ideal.div _ _
  congr 1
  refine (Ideal.multiReduction_add_single _ _ _ _ _ (ix2 r c)).trans ?_
  show ∑ k : Fin 64, _ = _
  refine Finset.sum_congr rfl fun k _ => ?_
  rw [lift_bin]
  unfold dev
  show FloatOps.absf (F := Ideal) (φ := .f32) (FloatOps.subf (F := Ideal) (φ := .f32)
    (FloatOps.divf (F := Ideal) (φ := .f32) (FloatOps.divf (F := Ideal) (φ := .f32) (v8 (ix3 r c k)) _)
      (broadcastTo S128x16x64 _ _ (ix3 r c k))) (v14 (ix3 r c k))) = _
  rw [widths3_apply]
  rfl

/-- THE FIRST POINT'S RESET stores zero everywhere. -/
theorem pay1_apply (y : S128x16x64.Idx) : k0_pay1 (F := Ideal) y = 0 := by
  unfold k0_pay1
  rw [shapeCast_self]
  exact Ideal.ofBits_zero_f32

end Cert.KernelIdeal.Pay

end
-- ==== Proof.LoopVal.lean ====
/-
  What the body's loop over the 16 chunks of 8 rows leaves in the scratch.

  Trip `k` reads rows `8k … 8k+7` of the sample block, of the centres, of the widths and of the scratch, and stores
  into those rows of the scratch what it read there plus the chunk's counts.  No earlier trip wrote those rows, so what
  trip `k` reads from the scratch is what the scratch held when the loop was entered.  Hence every stored piece agrees
  with ONE function of the whole block — the entry contents plus the block's counts (`blockHits`) — and after the 16
  trips, which cover the scratch, the scratch holds that function (`loop_read`).
-/
import proofs.«111479_j76802605187293_2_alg».proof.Proof.Gen.KernelIdeal.Loops
import proofs.«111479_j76802605187293_2_alg».proof.Proof.Pay
import Idealize.ShloMosaic.Lib.Writes
import Idealize.ShloMosaic.Lib.Pipeline.FrameBody
import Idealize.ShloMosaic.Lib.Pipeline.Frame

noncomputable section

namespace Cert.KernelIdeal.LoopVal

open Cert.KernelIdeal Cert.KernelIdeal.Gen Idealize.ShloMosaic Idealize.ShloMosaic.TcCoe Idealize.ShloMosaic.ValueIdx
open Cert.HistSpec Cert.KernelIdeal.Pay
open scoped BigOperators

/-- The counts one block of 128 samples contributes at `(r, c, k)`: how many of row `r`, channel `c`'s samples in the
    block fall within half a width of bin `k`'s centre. -/
def blockHits (x0 : Vec Ideal S128x16x128 .f32) (x1 : Vec Ideal S128x16x64 .f32) (x2 : Vec Ideal S128x16 .f32)
    (y : S128x16x64.Idx) : EReal :=
  ∑ l : Fin 128, hit (x0 (ix3 (y 0) (y 1) l)) (x1 y) (x2 (ix2 (y 0) (y 1)))

/-- The loop makes 16 trips. -/
theorem trips16 : k0_t1_loop.trips = 16 := by decide +kernel

section
variable (c : Dev nD) (i : grid0.Coords)
  (arg2 : Memref sig .tc .vmem S128x16x128 .f32) (harg2 : arg2.IsWhole) (arg3 : Memref sig .tc .vmem S128x16x64 .f32) (harg3 : arg3.IsWhole)
  (arg4 : Memref sig .tc .vmem S128x16 .f32) (harg4 : arg4.IsWhole) (arg5 : Memref sig .tc .vmem S128x16x64 .f32) (harg5 : arg5.IsWhole)
  (arg6 : Memref sig .tc .vmem S128x16 .f32) (harg6 : arg6.IsWhole) (arg7 : Memref sig .tc .vmem S128x16x64 .f32) (harg7 : arg7.IsWhole)
  (x0 : Vec Ideal S128x16x128 .f32) (x1 : Vec Ideal S128x16x64 .f32) (x2 : Vec Ideal S128x16 .f32)
  (Gc : BufTy.Contents (Elt Ideal) arg7.view.ty)

/-- The pieces the first `n` trips store, over entry contents `Gc` of the scratch. -/
abbrev PB (n : ℕ) : List (View.Piece (Elt Ideal) S128x16x64 .f32) :=
  pb_k0_t1 (F := Ideal) Variants.none c none i arg2 harg2 arg3 harg3 arg4 harg4 arg5 harg5 arg6 harg6 arg7 harg7
    (harg2.unread x0) (harg3.unread x1) (harg4.unread x2) Gc n

/-- Two rank-3 indices with the same three coordinates are equal. -/
theorem ext3 {n0 n1 n2 : Nat} {u v : (⟨3, ![n0, n1, n2]⟩ : Shape).Idx} (h0 : (u 0).val = (v 0).val) (h1 : (u 1).val = (v 1).val)
    (h2 : (u 2).val = (v 2).val) : u = v :=
  funext fun a => Fin.ext (match a with | ⟨0, _⟩ => h0 | ⟨1, _⟩ => h1 | ⟨2, _⟩ => h2)

/-- Two rank-2 indices with the same two coordinates are equal. -/
theorem ext2 {n0 n1 : Nat} {u v : (⟨2, ![n0, n1]⟩ : Shape).Idx} (h0 : (u 0).val = (v 0).val) (h1 : (u 1).val = (v 1).val) : u = v :=
  funext fun a => Fin.ext (match a with | ⟨0, _⟩ => h0 | ⟨1, _⟩ => h1)

/-- ONE TRIP'S STORE. Trip `k` over scratch contents `f` that agree with the entry contents `Gc` from row `8k` on stores,
    at its chunk's element `x`, the entry contents plus the block's counts at the element's place in the block. -/
theorem trip_piece (k : Fin k0_t1_loop.trips) (f : BufTy.Contents (Elt Ideal) arg7.view.ty)
    (hf : ∀ y : S128x16x64.Idx, 8 * k.val ≤ (y 0).val → arg7.view.read (Elt Ideal) f y = arg7.view.read (Elt Ideal) Gc y)
    (x : S8x16x64.Idx) :
    k0_pay2 (F := Ideal)
        (View.readAt (Elt Ideal) arg2.view (Rect.unit (s := S128x16x128) (k0_off1 k) S8x16x128.size (k0_off1_inb k)).toLoadRect (harg2.unread x0))
        (View.readAt (Elt Ideal) arg3.view (Rect.unit (s := S128x16x64) (k0_off2 k) S8x16x64.size (k0_off2_inb k)).toLoadRect (harg3.unread x1))
        (View.readAt (Elt Ideal) arg4.view (Rect.unit (s := S128x16) (k0_off3 k) S8x16.size (k0_off3_inb k)).toLoadRect (harg4.unread x2))
        (View.readAt (Elt Ideal) arg7.view (Rect.unit (s := S128x16x64) (k0_off2 k) S8x16x64.size (k0_off2_inb k)).toLoadRect f) x
      = arg7.view.read (Elt Ideal) Gc ((Rect.unit (s := S128x16x64) (k0_off2 k) S8x16x64.size (k0_off2_inb k)).emb x)
        + blockHits x0 x1 x2 ((Rect.unit (s := S128x16x64) (k0_off2 k) S8x16x64.size (k0_off2_inb k)).emb x) := by
  obtain ⟨j, cc, kk, rfl⟩ : ∃ (j : Fin 8) (cc : Fin 16) (kk : Fin 64), x = ix3 j cc kk := ⟨x 0, x 1, x 2, eq_ix3 x⟩
  rw [pay2_apply]
  simp only [View.readAt_eq_ld, harg2.read_unread, harg3.read_unread, harg4.read_unread]
  congr 1
  · exact hf _ (by simp [k0_off2_eq])
  · unfold blockHits
    refine Finset.sum_congr rfl fun l _ => ?_
    congr 1
    · exact congrArg x0 (ext3
        (by show (k0_off1 k) 0 + 1 * j.val = (k0_off2 k) 0 + 1 * j.val; rw [k0_off1_eq, k0_off2_eq])
        (by show (k0_off1 k) 1 + 1 * cc.val = (k0_off2 k) 1 + 1 * cc.val; rw [k0_off1_eq, k0_off2_eq])
        (by show (k0_off1 k) 2 + 1 * l.val = l.val; rw [k0_off1_eq]; show 0 + 1 * l.val = l.val; omega))
    · exact congrArg x2 (ext2
        (by show (k0_off3 k) 0 + 1 * j.val = (k0_off2 k) 0 + 1 * j.val; rw [k0_off3_eq, k0_off2_eq]; rfl)
        (by show (k0_off3 k) 1 + 1 * cc.val = (k0_off2 k) 1 + 1 * cc.val; rw [k0_off3_eq, k0_off2_eq]; rfl))

/-- Every piece of the first `n` trips is the entry contents plus the block's counts, read where the piece lies, and lies
    in rows below `8n`. -/
theorem pieces (n : ℕ) (hn : n ≤ 16) : ∀ p ∈ PB c i arg2 harg2 arg3 harg3 arg4 harg4 arg5 harg5 arg6 harg6 arg7 harg7 x0 x1 x2 Gc n,
    (∀ x : p.1.shape.Idx, p.2 x = arg7.view.read (Elt Ideal) Gc (p.1.emb x) + blockHits x0 x1 x2 (p.1.emb x))
      ∧ (∀ y ∈ p.1.set, (y 0).val < 8 * n) := by
  induction n with
  | zero => intro p hp; exact absurd hp List.not_mem_nil
  | succ n ih =>
    have hk : n < k0_t1_loop.trips := by rw [trips16]; omega
    have ih' := ih (by omega)
    intro p hp
    have e := pb_k0_t1_succ (F := Ideal) Variants.none c none i arg2 harg2 arg3 harg3 arg4 harg4 arg5 harg5 arg6 harg6 arg7 harg7
      (harg2.unread x0) (harg3.unread x1) (harg4.unread x2) Gc ⟨n, hk⟩
    unfold PB at hp
    rw [show n + 1 = (⟨n, hk⟩ : Fin k0_t1_loop.trips).val + 1 from rfl, e] at hp
    rcases List.mem_append.mp hp with hp | hp
    · unfold tripL_k0_t1 trip_k0_t1 at hp
      dsimp only at hp
      rw [List.mem_singleton] at hp
      subst hp
      refine ⟨fun x => ?_, fun y hy => ?_⟩
      · exact trip_piece arg2 harg2 arg3 harg3 arg4 harg4 arg7 x0 x1 x2 Gc ⟨n, hk⟩ _
          (fun y hy => View.read_writes_apply_of_forall_not_mem arg7.view Gc y _ (fun p hp hm => by
            have := (ih' p hp).2 y hm; dsimp only at hy; omega)) x
      · dsimp only at hy
        have h0 := ((Rect.mem_set_unit.mp hy) ⟨0, by decide⟩).2
        rw [k0_off2_eq] at h0
        have h1 : (y 0).val < 8 * n + 8 := h0
        omega
    · obtain ⟨h1, h2⟩ := ih' p hp
      exact ⟨h1, fun y hy => by have := h2 y hy; omega⟩

/-- The first `n` trips' pieces cover the rows below `8n`: row `r` lies in trip `r / 8`'s chunk. -/
theorem covered (n : ℕ) (hn : n ≤ 16) (y : S128x16x64.Idx) (hy : (y 0).val < 8 * n) :
    ∃ p ∈ PB c i arg2 harg2 arg3 harg3 arg4 harg4 arg5 harg5 arg6 harg6 arg7 harg7 x0 x1 x2 Gc n, y ∈ p.1.set := by
  induction n with
  | zero => exact absurd hy (by omega)
  | succ n ih =>
    have hk : n < k0_t1_loop.trips := by rw [trips16]; omega
    have e := pb_k0_t1_succ (F := Ideal) Variants.none c none i arg2 harg2 arg3 harg3 arg4 harg4 arg5 harg5 arg6 harg6 arg7 harg7
      (harg2.unread x0) (harg3.unread x1) (harg4.unread x2) Gc ⟨n, hk⟩
    unfold PB
    rw [show n + 1 = (⟨n, hk⟩ : Fin k0_t1_loop.trips).val + 1 from rfl, e]
    by_cases hlt : (y 0).val < 8 * n
    · obtain ⟨p, hp, hm⟩ := ih (by omega) hlt
      exact ⟨p, List.mem_append_right _ hp, hm⟩
    · unfold tripL_k0_t1 trip_k0_t1
      dsimp only
      refine ⟨_, List.mem_append_left _ (List.mem_singleton.mpr rfl), ?_⟩
      dsimp only
      rw [Rect.mem_set_unit, k0_off2_eq]
      intro a
      match a with
      | ⟨0, _⟩ => exact ⟨by show 8 * n ≤ (y 0).val; omega, by show (y 0).val < 8 * n + 8; omega⟩
      | ⟨1, _⟩ => exact ⟨Nat.zero_le _, by show (y 1).val < 0 + 16; have h1 : (y 1).val < 16 := (y 1).isLt; omega⟩
      | ⟨2, _⟩ => exact ⟨Nat.zero_le _, by show (y 2).val < 0 + 64; have h2 : (y 2).val < 64 := (y 2).isLt; omega⟩

/-- AFTER THE LOOP an element of the scratch that the 16 trips' pieces cover holds the entry contents plus the block's
    counts there, read through any view over any prior contents. -/
theorem loop_read {sig' : RefSig} {κ' : Kind} {sp' : Space} (v' : View sig' κ' sp' S128x16x64 .f32) (f' : v'.ty.Contents (Elt Ideal))
    (y : S128x16x64.Idx)
    (hcov : ∃ p ∈ PB c i arg2 harg2 arg3 harg3 arg4 harg4 arg5 harg5 arg6 harg6 arg7 harg7 x0 x1 x2 Gc 16, y ∈ p.1.set) :
    v'.read (Elt Ideal) (v'.writes (Elt Ideal) f' (PB c i arg2 harg2 arg3 harg3 arg4 harg4 arg5 harg5 arg6 harg6 arg7 harg7 x0 x1 x2 Gc 16)) y
      = arg7.view.read (Elt Ideal) Gc y + blockHits x0 x1 x2 y :=
  View.read_writes_apply_of_pieces v' f' (fun y => arg7.view.read (Elt Ideal) Gc y + blockHits x0 x1 x2 y) _
    (fun p hp => (pieces c i arg2 harg2 arg3 harg3 arg4 harg4 arg5 harg5 arg6 harg6 arg7 harg7 x0 x1 x2 Gc 16 le_rfl p hp).1) y hcov

end

end Cert.KernelIdeal.LoopVal

end
-- ==== Proof.Cases.lean ====
/-
  What each of the body's three cases leaves, as values.

  At the first point of a row tile the scratch is reset and the loop adds the block's counts: the scratch ends at
  `0 + counts`.  At the other points the loop adds to what the point before left: `previous + counts`.  At the last
  point the body then stores the tile's loss from the scratch it has just completed.
-/
import proofs.«111479_j76802605187293_2_alg».proof.Proof.Gen.KernelIdeal.Frame
import proofs.«111479_j76802605187293_2_alg».proof.Proof.LoopVal
import Idealize.ShloMosaic.Lib.Pipeline.Value
import Idealize.ShloMosaic.Lib.Tactic

noncomputable section

namespace Cert.KernelIdeal.Cases

open Cert.KernelIdeal Cert.KernelIdeal.Gen Idealize.ShloMosaic Idealize.ShloMosaic.TcCoe Idealize.ShloMosaic.ValueIdx
open Cert.HistSpec Cert.KernelIdeal.Pay Cert.KernelIdeal.LoopVal
open scoped BigOperators

/-- The loop's trip count as the body computes it. -/
theorem e16 : Scf.trips (0#32) (Scalar.addi 0#32 16#32) 1#32 = 16 := by decide +kernel

section
variable (c : Dev nD) (i : grid0.Coords)
  (arg2 : Memref sig .tc .vmem S128x16x128 .f32) (harg2 : arg2.IsWhole) (arg3 : Memref sig .tc .vmem S128x16x64 .f32) (harg3 : arg3.IsWhole)
  (arg4 : Memref sig .tc .vmem S128x16 .f32) (harg4 : arg4.IsWhole) (arg5 : Memref sig .tc .vmem S128x16x64 .f32) (harg5 : arg5.IsWhole)
  (arg6 : Memref sig .tc .vmem S128x16 .f32) (harg6 : arg6.IsWhole) (arg7 : Memref sig .tc .vmem S128x16x64 .f32) (harg7 : arg7.IsWhole)
  (x0 : Vec Ideal S128x16x128 .f32) (x1 : Vec Ideal S128x16x64 .f32) (x2 : Vec Ideal S128x16 .f32) (x3 : Vec Ideal S128x16x64 .f32)

/-- A MIDDLE POINT leaves in the scratch what the point before left plus the block's counts. -/
theorem sout_B (hc0 : ¬cond0_0 i) (hc1 : ¬cond0_1 i) (xs0 : Vec Ideal S128x16x64 .f32) (y : S128x16x64.Idx) :
    sout0_B_0 (F := Ideal) c i arg2 harg2 arg3 harg3 arg4 harg4 arg5 harg5 arg6 harg6 arg7 harg7 hc0 hc1 x0 x1 x2 x3 xs0 y
      = xs0 y + blockHits x0 x1 x2 y := by
  have hcov := scover0_B_0 (F := Ideal) c i arg2 harg2 arg3 harg3 arg4 harg4 arg5 harg5 arg6 harg6 arg7 harg7 hc0 hc1 x0 x1 x2 x3 xs0 y
  unfold sout0_B_0
  unfold kernelRun0_B at hcov ⊢
  dsimp only at hcov ⊢
  rw [e16] at hcov ⊢
  refine (loop_read c i arg2 harg2 arg3 harg3 arg4 harg4 arg5 harg5 arg6 harg6 arg7 harg7 x0 x1 x2 (harg7.unread xs0) VS0_0 VS0_0.junk y hcov).trans ?_
  rw [harg7.read_unread]

theorem hz3 : (![0, 0, 0] : Fin 3 → Nat) = fun _ => 0 := funext fun a => by fin_cases a <;> rfl
theorem hz2 : (![0, 0] : Fin 2 → Nat) = fun _ => 0 := funext fun a => by fin_cases a <;> rfl

/-- THE FIRST POINT of a row tile resets the scratch and leaves in it the block's counts over zero. -/
theorem sout_A (hc0 : cond0_0 i) (hc1 : ¬cond0_1 i) (y : S128x16x64.Idx) :
    sout0_A_0 (F := Ideal) c i arg2 harg2 arg3 harg3 arg4 harg4 arg5 harg5 arg6 harg6 arg7 harg7 hc0 hc1 x0 x1 x2 x3 y
      = 0 + blockHits x0 x1 x2 y := by
  unfold sout0_A_0
  unfold kernelRun0_A
  dsimp only
  sl_unfold_words
  rw [e16, View.writes_append]
  refine (loop_read c i arg2 harg2 arg3 harg3 arg4 harg4 arg5 harg5 arg6 harg6 arg7 harg7 x0 x1 x2 _ VS0_0 _ y
    (covered c i arg2 harg2 arg3 harg3 arg4 harg4 arg5 harg5 arg6 harg6 arg7 harg7 x0 x1 x2 _ 16 le_rfl y (by have h : (y 0).val < 128 := (y 0).isLt; omega))).trans ?_
  congr 1
  exact View.read_writes_apply_of_pieces arg7.view _ (fun _ => 0) _
    (fun p hp x => by rw [List.mem_singleton] at hp; subst hp; exact pay1_apply x) y
    ⟨_, List.mem_singleton.mpr rfl, by
      dsimp only
      rw [Rect.mem_set_unit]
      intro a
      match a with
      | ⟨0, _⟩ => exact ⟨Nat.zero_le _, by show (y 0).val < 0 + 128; have h : (y 0).val < 128 := (y 0).isLt; omega⟩
      | ⟨1, _⟩ => exact ⟨Nat.zero_le _, by show (y 1).val < 0 + 16; have h : (y 1).val < 16 := (y 1).isLt; omega⟩
      | ⟨2, _⟩ => exact ⟨Nat.zero_le _, by show (y 2).val < 0 + 64; have h : (y 2).val < 64 := (y 2).isLt; omega⟩⟩

/-- THE LAST POINT's output. -/
theorem out_C (hc0 : ¬cond0_0 i) (hc1 : cond0_1 i) (xs0 : Vec Ideal S128x16x64 .f32) (r : Fin 128) (cc : Fin 16) :
    out0_C_4 (F := Ideal) c i arg2 harg2 arg3 harg3 arg4 harg4 arg5 harg5 arg6 harg6 arg7 harg7 hc0 hc1 x0 x1 x2 x3 xs0 (ix2 r cc)
      = mean64 (∑ k : Fin 64, dev (xs0 (ix3 r cc k) + blockHits x0 x1 x2 (ix3 r cc k)) (x2 (ix2 r cc)) (x3 (ix3 r cc k))) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  rw [View.canon_unit_zero hz2]
  sl_unfold_words
  rw [pay3_apply]
  rw [show Scf.trips k0_t1_loop.lb k0_t1_loop.ub k0_t1_loop.st = 16 from trips16]
  simp only [View.readAt_eq_ld, harg4.read_unread, harg5.read_unread, View.ld_unit_zero (S := S128x16x64) hz3,
    View.ld_unit_zero (S := S128x16) hz2]
  congr 1
  refine Finset.sum_congr rfl fun k _ => ?_
  congr 1
  · refine (loop_read c i arg2 harg2 arg3 harg3 arg4 harg4 arg5 harg5 arg6 harg6 arg7 harg7 x0 x1 x2 (harg7.unread xs0) arg7.view (harg7.unread xs0) (ix3 r cc k)
      (covered c i arg2 harg2 arg3 harg3 arg4 harg4 arg5 harg5 arg6 harg6 arg7 harg7 x0 x1 x2 (harg7.unread xs0) 16 le_rfl _ (by show r.val < 8 * 16; omega))).trans ?_
    rw [harg7.read_unread]
  · exact congrFun (View.ld_unit_zero (S := S128x16) hz2 inb_S128x16_S128x16_0_0 x2) (ix2 r cc)
  · exact congrFun (View.ld_unit_zero (S := S128x16x64) hz3 inb_S128x16x64_S128x16x64_0_0_0 x3) (ix3 r cc k)

/-- THE LAST POINT leaves in the scratch, like a middle point, what the point before left plus the block's counts. -/
theorem sout_C (hc0 : ¬cond0_0 i) (hc1 : cond0_1 i) (xs0 : Vec Ideal S128x16x64 .f32) (y : S128x16x64.Idx) :
    sout0_C_0 (F := Ideal) c i arg2 harg2 arg3 harg3 arg4 harg4 arg5 harg5 arg6 harg6 arg7 harg7 hc0 hc1 x0 x1 x2 x3 xs0 y
      = xs0 y + blockHits x0 x1 x2 y := by
  unfold sout0_C_0
  unfold kernelRun0_C
  dsimp only
  rw [e16]
  refine (loop_read c i arg2 harg2 arg3 harg3 arg4 harg4 arg5 harg5 arg6 harg6 arg7 harg7 x0 x1 x2 (harg7.unread xs0) VS0_0 VS0_0.junk y
    (covered c i arg2 harg2 arg3 harg3 arg4 harg4 arg5 harg5 arg6 harg6 arg7 harg7 x0 x1 x2 (harg7.unread xs0) 16 le_rfl y (by have h : (y 0).val < 128 := (y 0).isLt; omega))).trans ?_
  rw [harg7.read_unread]

end

end Cert.KernelIdeal.Cases

end
-- ==== Proof.Chain.lean ====
/-
  The scratch across the eight points of a row tile.

  The first point of a row tile (`t % 8 = 0`) leaves the block's counts over zero; every later point adds its block's
  counts to what the point before left.  So after point `t` the scratch holds the sum of the counts of the points
  `8·(t/8) … t` (`scratch_eq`), and the last point of the tile stores the tile's loss computed from it (`out_eq`).
-/
import proofs.«111479_j76802605187293_2_alg».proof.Proof.Gen.KernelIdeal.Frame
import proofs.«111479_j76802605187293_2_alg».proof.Proof.Cases
import Idealize.ShloMosaic.Lib.Pipeline.Value

noncomputable section

namespace Cert.KernelIdeal.Chain

open Cert.KernelIdeal Cert.KernelIdeal.Gen Idealize.ShloMosaic Idealize.ShloMosaic.TcCoe Idealize.ShloMosaic.ValueIdx
open Cert.HistSpec Cert.KernelIdeal.Pay Cert.KernelIdeal.LoopVal Cert.KernelIdeal.Cases
open scoped BigOperators

variable (m : (ℓ : Loc nD τ sig) → Buf (Elt Ideal) ℓ) (c : Dev nD)

/-- Point `n`'s counts: the counts of its block of samples against its blocks of centres and widths (zero past the grid). -/
def ptHits (n : ℕ) (y : S128x16x64.Idx) : EReal :=
  if h : n < cfg0.N then blockHits (iblk m c 0 ⟨n, h⟩) (iblk m c 1 ⟨n, h⟩) (iblk m c 2 ⟨n, h⟩) y else 0

/-- At the first point of a row tile the scratch ends at that point's counts over zero. -/
theorem scratch_reset (n : ℕ) (h : n < cfg0.N) (h0 : n % 8 = 0) :
    (outsAt0 m c n h).2 = fun y => 0 + ptHits m c n y := by
  have h1 : ¬ n % 8 = 7 := by omega
  rw [outsAt0_A m c ⟨n, h⟩ h0 h1]
  funext y
  dsimp only
  rw [sout_A]
  unfold ptHits
  rw [dif_pos h]

/-- At every other point it ends at what the point before left plus that point's counts. -/
theorem scratch_step (n : ℕ) (h : n + 1 < cfg0.N) (h0 : ¬ (n + 1) % 8 = 0) :
    (outsAt0 m c (n + 1) h).2 = fun y => (outsAt0 m c n (Nat.lt_of_succ_lt h)).2 y + ptHits m c (n + 1) y := by
  by_cases h1 : (n + 1) % 8 = 7
  · rw [outsAt0_C m c ⟨n + 1, h⟩ h0 h1]
    funext y
    dsimp only
    rw [sout_C]
    unfold ptHits
    rw [dif_pos h]
    rfl
  · rw [outsAt0_B m c ⟨n + 1, h⟩ h0 h1]
    funext y
    dsimp only
    rw [sout_B]
    unfold ptHits
    rw [dif_pos h]
    rfl

/-- THE SCRATCH AFTER POINT `t`: the counts of the points of `t`'s row tile up to `t`, summed over zero. -/
theorem scratch_eq (t : ℕ) (ht : t < cfg0.N) (y : S128x16x64.Idx) :
    (outsAt0 m c t ht).2 y = 0 + ∑ s ∈ Finset.range (t % 8 + 1), ptHits m c (8 * (t / 8) + s) y := by
  have h' : 8 * (t / 8) + t % 8 < cfg0.N := by rw [Nat.div_add_mod]; exact ht
  have e := Pipeline.eq_accAt_of_mod (N := cfg0.N) (fun n h => (outsAt0 m c n h).2) 8
    (fun n _ y => 0 + ptHits m c n y) (fun n _ acc y => acc y + ptHits m c n y)
    (fun n h h0 => scratch_reset m c n h h0) (fun n h h0 => scratch_step m c n h h0) (by omega) t ht h'
  refine (congrFun e y).trans ?_
  exact Pipeline.accAt_add_apply _ _ (fun _ => 0) (ptHits m c) (8 * (t / 8)) 7 (fun _ _ => rfl) (fun _ _ _ _ _ _ => rfl)
    (t % 8) (by omega) h' y

/-- THE LAST POINT OF A ROW TILE stores, at `(r, c)`, the mean over the bins of the deviation of the completed scratch
    against the tile's widths and reference densities. -/
theorem out_eq (t : Fin cfg0.N) (h7 : t.val % 8 = 7) (r : Fin 128) (cc : Fin 16) :
    ((outsAt0 m c t.val t.isLt).1 : Vec Ideal S128x16 .f32) (ix2 r cc)
      = mean64 (∑ k : Fin 64, dev ((outsAt0 m c t.val t.isLt).2 (ix3 r cc k))
          ((iblk m c 2 t : Vec Ideal S128x16 .f32) (ix2 r cc)) ((iblk m c 3 t : Vec Ideal S128x16x64 .f32) (ix3 r cc k))) := by
  have h0 : ¬ t.val % 8 = 0 := by omega
  rw [outsAt0_C m c t h0 h7]
  dsimp only
  rw [out_C]
  simp only [sout_C]

end Cert.KernelIdeal.Chain

end
-- ==== Proof.Blocks.lean ====
/-
  Where each input block sits in its array.

  Grid point `t` is row tile `t / 8`, sample block `t % 8`.  Its block of the transposed samples is rows
  `128·(t/8) …`, batch positions `128·(t%8) …`; its blocks of the centres, the widths and the reference densities are
  rows `128·(t/8) …`.  The transposed samples are the host's transpose of `x_fake`: entry `(R, c, b)` is `x_fake[b, R, c]`.
-/
import proofs.«111479_j76802605187293_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

namespace Cert.KernelIdeal.Blocks

open Cert.KernelIdeal Cert.KernelIdeal.Gen Idealize.ShloMosaic Idealize.ShloMosaic.TcCoe Idealize.ShloMosaic.ValueIdx
open Idealize.SL.Sem Idealize.ShloMosaic.StableHlo

variable {F : FTy → Type} [FloatOps F]
variable (m : (ℓ : Loc nD τ sig) → Buf (Elt F) ℓ)

/-- The windows' block indices at a grid point: the row tile `t / 8` on the row axis, the sample block `t % 8` on the
    batch axis of the samples, zero elsewhere. -/
theorem idx_facts : ∀ t : Fin cfg0.N,
    win0_0.index t (0 : Fin 3) = t.val / 8 ∧ win0_0.index t (1 : Fin 3) = 0 ∧ win0_0.index t (2 : Fin 3) = t.val % 8
    ∧ win0_1.index t (0 : Fin 3) = t.val / 8 ∧ win0_1.index t (1 : Fin 3) = 0 ∧ win0_1.index t (2 : Fin 3) = 0
    ∧ win0_2.index t (0 : Fin 2) = t.val / 8 ∧ win0_2.index t (1 : Fin 2) = 0
    ∧ win0_3.index t (0 : Fin 3) = t.val / 8 ∧ win0_3.index t (1 : Fin 3) = 0 ∧ win0_3.index t (2 : Fin 3) = 0
    ∧ win0_4.index t (0 : Fin 2) = t.val / 8 ∧ win0_4.index t (1 : Fin 2) = 0 :=
  (by decide +kernel : ∀ t : Fin grid0.N, _)

/-- The sample block at point `t`, element `(r, c, l)`: the transposed samples at row `128·(t/8) + r`, channel `c`,
    batch position `128·(t%8) + l`. -/
theorem blk0_apply (c : Dev nD) (t : Fin cfg0.N) (r : Fin 128) (cc : Fin 16) (l : Fin 128) (k : S256x16x1024.Idx)
    (hk0 : (k 0).val = 128 * (t.val / 8) + r.val) (hk1 : (k 1).val = cc.val) (hk2 : (k 2).val = 128 * (t.val % 8) + l.val) :
    (iblk m c 0 t : Vec F S128x16x128 .f32) (ix3 r cc l) = (V m c main_v0 : S256x16x1024.Idx → Elt F .f32) k := by
  obtain ⟨h0, h1, h2, -⟩ := idx_facts t
  unfold iblk
  rw [View.read_apply]
  show V m c main_v0 _ = V m c main_v0 _
  congr 1
  funext a
  apply Fin.ext
  match a with
  | ⟨0, _⟩ => show win0_0.index t 0 * 128 + 1 * r.val = (k 0).val; rw [h0, hk0]; omega
  | ⟨1, _⟩ => show win0_0.index t 1 * 16 + 1 * cc.val = (k 1).val; rw [h1, hk1]; omega
  | ⟨2, _⟩ => show win0_0.index t 2 * 128 + 1 * l.val = (k 2).val; rw [h2, hk2]; omega

/-- The centres' block at point `t`, element `(r, c, k)`: the centres at row `128·(t/8) + r`. -/
theorem blk1_apply (c : Dev nD) (t : Fin cfg0.N) (r : Fin 128) (cc : Fin 16) (kk : Fin 64) (k : S256x16x64.Idx)
    (hk0 : (k 0).val = 128 * (t.val / 8) + r.val) (hk1 : (k 1).val = cc.val) (hk2 : (k 2).val = kk.val) :
    (iblk m c 1 t : Vec F S128x16x64 .f32) (ix3 r cc kk) = (m ((c : Thread nD τ).loc main_arg1) : S256x16x64.Idx → Elt F .f32) k := by
  obtain ⟨-, -, -, h0, h1, h2, -⟩ := idx_facts t
  unfold iblk
  rw [View.read_apply]
  show V m c main_arg1 _ = m (c.tc.loc main_arg1) _
  rw [V_main_arg1]
  congr 1
  funext a
  apply Fin.ext
  match a with
  | ⟨0, _⟩ => show win0_1.index t 0 * 128 + 1 * r.val = (k 0).val; rw [h0, hk0]; omega
  | ⟨1, _⟩ => show win0_1.index t 1 * 16 + 1 * cc.val = (k 1).val; rw [h1, hk1]; omega
  | ⟨2, _⟩ => show win0_1.index t 2 * 64 + 1 * kk.val = (k 2).val; rw [h2, hk2]; omega

/-- The widths' block at point `t`, element `(r, c)`: the widths at row `128·(t/8) + r`. -/
theorem blk2_apply (c : Dev nD) (t : Fin cfg0.N) (r : Fin 128) (cc : Fin 16) (k : S256x16.Idx)
    (hk0 : (k 0).val = 128 * (t.val / 8) + r.val) (hk1 : (k 1).val = cc.val) :
    (iblk m c 2 t : Vec F S128x16 .f32) (ix2 r cc) = (m ((c : Thread nD τ).loc main_arg2) : S256x16.Idx → Elt F .f32) k := by
  obtain ⟨-, -, -, -, -, -, h0, h1, -⟩ := idx_facts t
  unfold iblk
  rw [View.read_apply]
  show V m c main_arg2 _ = m (c.tc.loc main_arg2) _
  rw [V_main_arg2]
  congr 1
  funext a
  apply Fin.ext
  match a with
  | ⟨0, _⟩ => show win0_2.index t 0 * 128 + 1 * r.val = (k 0).val; rw [h0, hk0]; omega
  | ⟨1, _⟩ => show win0_2.index t 1 * 16 + 1 * cc.val = (k 1).val; rw [h1, hk1]; omega

/-- The reference densities' block at point `t`, element `(r, c, k)`: the densities at row `128·(t/8) + r`. -/
theorem blk3_apply (c : Dev nD) (t : Fin cfg0.N) (r : Fin 128) (cc : Fin 16) (kk : Fin 64) (k : S256x16x64.Idx)
    (hk0 : (k 0).val = 128 * (t.val / 8) + r.val) (hk1 : (k 1).val = cc.val) (hk2 : (k 2).val = kk.val) :
    (iblk m c 3 t : Vec F S128x16x64 .f32) (ix3 r cc kk) = (m ((c : Thread nD τ).loc main_arg3) : S256x16x64.Idx → Elt F .f32) k := by
  obtain ⟨-, -, -, -, -, -, -, -, h0, h1, h2, -⟩ := idx_facts t
  unfold iblk
  rw [View.read_apply]
  show V m c main_arg3 _ = m (c.tc.loc main_arg3) _
  rw [V_main_arg3]
  congr 1
  funext a
  apply Fin.ext
  match a with
  | ⟨0, _⟩ => show win0_3.index t 0 * 128 + 1 * r.val = (k 0).val; rw [h0, hk0]; omega
  | ⟨1, _⟩ => show win0_3.index t 1 * 16 + 1 * cc.val = (k 1).val; rw [h1, hk1]; omega
  | ⟨2, _⟩ => show win0_3.index t 2 * 64 + 1 * kk.val = (k 2).val; rw [h2, hk2]; omega

/-- The array the region finds for the samples is the host's transpose of `x_fake`. -/
theorem V_v0 (c : Dev nD) : (V m c main_v0 : S256x16x1024.Idx → Elt F .f32)
    = transpose S256x16x1024 [1, 2, 0] (m ((c : Thread nD τ).loc main_arg0)) transposes_S1024x256x16_S256x16x1024_1_2_0 := by
  show StableHlo.after hostOps0 (fun b => m (c, b)) (Proc.devRef .tc main_v0) = _
  after_results

/-- So its entry `(R, c, b)` is `x_fake[b, R, c]`. -/
theorem V_v0_apply (c : Dev nD) (R : Fin 256) (cc : Fin 16) (b : Fin 1024) :
    (V m c main_v0 : S256x16x1024.Idx → Elt F .f32) (ix3 R cc b)
      = (m ((c : Thread nD τ).loc main_arg0) : S1024x256x16.Idx → Elt F .f32) (ix3 b R cc) := by
  rw [V_v0]
  exact transpose_apply [1, 2, 0] _ transposes_S1024x256x16_S256x16x1024_1_2_0 (ix3 R cc b) (ix3 b R cc) (fun a => match a with
    | ⟨0, _⟩ => rfl | ⟨1, _⟩ => rfl | ⟨2, _⟩ => rfl)

end Cert.KernelIdeal.Blocks

end
-- ==== Proof.KernelValue.lean ====
/-
  What the kernel's run leaves: its result array and, through the host's last operations, its result.

  A row tile's last point writes back the tile's `[128,16]` block of losses.  Its scratch then holds the counts of the
  tile's eight sample blocks, that is of the whole batch (`sum_blocks`), so the block is the tile's rows of `rowLoss` of
  the arguments (`flushed_eq`).  The two tiles cover the `[256,16]` array (`final_out`), and the host's last operations
  return the tail of it (`run`).
-/
import proofs.«111479_j76802605187293_2_alg».proof.Proof.Gen.KernelIdeal.Frame
import proofs.«111479_j76802605187293_2_alg».proof.Proof.Chain
import proofs.«111479_j76802605187293_2_alg».proof.Proof.Blocks
import Idealize.ShloMosaic.Lib.Pipeline.Value
import Idealize.ShloMosaic.Lib.StableHlo.Run
import Idealize.ShloMosaic.Lib.Tactic

noncomputable section

namespace Cert.KernelIdeal.KernelValue

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)
open Cert.HistSpec Cert.KernelIdeal.Pay Cert.KernelIdeal.LoopVal Cert.KernelIdeal.Cases Cert.KernelIdeal.Chain Cert.KernelIdeal.Blocks
open scoped BigOperators

variable (m : (ℓ : Loc nD τ sig) → Buf (Elt Ideal) ℓ) (ρ : Dev nD → PrngReg) (c : Dev nD)

/-- The loss array of the arguments as launched. -/
abbrev lossArr : S256x16.Idx → EReal :=
  rowLoss (m ((c : Thread nD τ).loc main_arg0)) (m ((c : Thread nD τ).loc main_arg1)) (m ((c : Thread nD τ).loc main_arg2)) (m ((c : Thread nD τ).loc main_arg3))

/-- The indicator of batch position `b` for row and channel `i`, bin `k` (zero past the batch). -/
def hitAt (i : S256x16.Idx) (k : Fin 64) (b : ℕ) : EReal :=
  if h : b < 1024 then
    hit (((m ((c : Thread nD τ).loc main_arg0)) : S1024x256x16.Idx → EReal) (ix3 ⟨b, h⟩ (i 0) (i 1)))
      (((m ((c : Thread nD τ).loc main_arg1)) : S256x16x64.Idx → EReal) (ix3 (i 0) (i 1) k)) (((m ((c : Thread nD τ).loc main_arg2)) : S256x16.Idx → EReal) i)
  else 0

/-- Point `8q + s`'s counts at `(r, c, k)` are the indicators of batch positions `128s … 128s + 127` for row `128q + r`. -/
theorem ptHits_apply (q s : ℕ) (hq : q < 2) (hs : s < 8) (r : Fin 128) (cc : Fin 16) (k : Fin 64) (i : S256x16.Idx)
    (hi0 : (i 0).val = 128 * q + r.val) (hi1 : (i 1).val = cc.val) :
    ptHits m c (8 * q + s) (ix3 r cc k) = ∑ l : Fin 128, hitAt m c i k (128 * s + l.val) := by
  have hN : cfg0.N = 16 := N_0
  have ht : 8 * q + s < cfg0.N := by omega
  have hd : (8 * q + s) / 8 = q := by omega
  have hm : (8 * q + s) % 8 = s := by omega
  unfold ptHits
  rw [dif_pos ht]
  unfold blockHits
  refine Finset.sum_congr rfl fun l _ => ?_
  have hl : 128 * s + l.val < 1024 := by have := l.isLt; omega
  unfold hitAt
  rw [dif_pos hl]
  have ea : (iblk m c 0 ⟨8 * q + s, ht⟩ : Vec Ideal S128x16x128 .f32) (ix3 r cc l)
      = ((m ((c : Thread nD τ).loc main_arg0)) : S1024x256x16.Idx → EReal) (ix3 ⟨128 * s + l.val, hl⟩ (i 0) (i 1)) :=
    (blk0_apply m c ⟨8 * q + s, ht⟩ r cc l (ix3 (i 0) (i 1) ⟨128 * s + l.val, hl⟩)
      (by show (i 0).val = 128 * ((8 * q + s) / 8) + r.val; rw [hd, hi0]) hi1
      (by show 128 * s + l.val = 128 * ((8 * q + s) % 8) + l.val; rw [hm])).trans
      (V_v0_apply m c (i 0) (i 1) ⟨128 * s + l.val, hl⟩)
  have eb : (iblk m c 1 ⟨8 * q + s, ht⟩ : Vec Ideal S128x16x64 .f32) (ix3 r cc k)
      = ((m ((c : Thread nD τ).loc main_arg1)) : S256x16x64.Idx → EReal) (ix3 (i 0) (i 1) k) :=
    blk1_apply m c ⟨8 * q + s, ht⟩ r cc k (ix3 (i 0) (i 1) k)
      (by show (i 0).val = 128 * ((8 * q + s) / 8) + r.val; rw [hd, hi0]) hi1 rfl
  have ed : (iblk m c 2 ⟨8 * q + s, ht⟩ : Vec Ideal S128x16 .f32) (ix2 r cc) = ((m ((c : Thread nD τ).loc main_arg2)) : S256x16.Idx → EReal) i :=
    blk2_apply m c ⟨8 * q + s, ht⟩ r cc i (by show (i 0).val = 128 * ((8 * q + s) / 8) + r.val; rw [hd, hi0]) hi1
  show hit ((iblk m c 0 ⟨8 * q + s, ht⟩ : Vec Ideal S128x16x128 .f32) (ix3 r cc l))
    ((iblk m c 1 ⟨8 * q + s, ht⟩ : Vec Ideal S128x16x64 .f32) (ix3 r cc k))
    ((iblk m c 2 ⟨8 * q + s, ht⟩ : Vec Ideal S128x16 .f32) (ix2 r cc)) = _
  rw [ea, eb, ed]

/-- AFTER A ROW TILE'S LAST POINT the scratch holds, at `(r, c, k)`, the bin's count over the whole batch for row
    `128·(t/8) + r`: the eight points' counts are the eight runs of 128 batch positions. -/
theorem counts_total (t : Fin cfg0.N) (h7 : t.val % 8 = 7) (r : Fin 128) (cc : Fin 16) (k : Fin 64) (i : S256x16.Idx)
    (hi0 : (i 0).val = 128 * (t.val / 8) + r.val) (hi1 : (i 1).val = cc.val) :
    (outsAt0 m c t.val t.isLt).2 (ix3 r cc k)
      = ∑ b : Fin 1024, hit (((m ((c : Thread nD τ).loc main_arg0)) : S1024x256x16.Idx → EReal) (ix3 b (i 0) (i 1)))
          (((m ((c : Thread nD τ).loc main_arg1)) : S256x16x64.Idx → EReal) (ix3 (i 0) (i 1) k)) (((m ((c : Thread nD τ).loc main_arg2)) : S256x16.Idx → EReal) i) := by
  have hN : cfg0.N = 16 := N_0
  have ht : t.val < 16 := lt_of_lt_of_eq t.isLt hN
  have hsum : ∑ s ∈ Finset.range 8, ptHits m c (8 * (t.val / 8) + s) (ix3 r cc k)
      = ∑ s ∈ Finset.range 8, ∑ l : Fin 128, hitAt m c i k (128 * s + l.val) :=
    Finset.sum_congr rfl (fun s hs => ptHits_apply m c (t.val / 8) s (by omega) (Finset.mem_range.mp hs) r cc k i hi0 hi1)
  have hlast : ∑ b : Fin 1024, hitAt m c i k b.val
      = ∑ b : Fin 1024, hit (((m ((c : Thread nD τ).loc main_arg0)) : S1024x256x16.Idx → EReal) (ix3 b (i 0) (i 1)))
          (((m ((c : Thread nD τ).loc main_arg1)) : S256x16x64.Idx → EReal) (ix3 (i 0) (i 1) k)) (((m ((c : Thread nD τ).loc main_arg2)) : S256x16.Idx → EReal) i) :=
    Finset.sum_congr rfl (fun b _ => by unfold hitAt; rw [dif_pos b.isLt])
  rw [scratch_eq m c t.val t.isLt (ix3 r cc k), show t.val % 8 + 1 = 8 from by omega, zero_add, hsum, sum_blocks (hitAt m c i k), hlast]

/-- A ROW TILE'S LAST POINT stores, at `(r, c)`, the loss of row `128·(t/8) + r`, channel `c`. -/
theorem tile_loss (t : Fin cfg0.N) (h7 : t.val % 8 = 7) (r : Fin 128) (cc : Fin 16) (i : S256x16.Idx)
    (hi0 : (i 0).val = 128 * (t.val / 8) + r.val) (hi1 : (i 1).val = cc.val) :
    ((outsAt0 m c t.val t.isLt).1 : Vec Ideal S128x16 .f32) (ix2 r cc) = lossArr m c i := by
  have key : ∀ k : Fin 64,
      dev ((outsAt0 m c t.val t.isLt).2 (ix3 r cc k)) ((iblk m c 2 t : Vec Ideal S128x16 .f32) (ix2 r cc))
        ((iblk m c 3 t : Vec Ideal S128x16x64 .f32) (ix3 r cc k))
      = dev (∑ b : Fin 1024, hit (((m ((c : Thread nD τ).loc main_arg0)) : S1024x256x16.Idx → EReal) (ix3 b (i 0) (i 1)))
          (((m ((c : Thread nD τ).loc main_arg1)) : S256x16x64.Idx → EReal) (ix3 (i 0) (i 1) k)) (((m ((c : Thread nD τ).loc main_arg2)) : S256x16.Idx → EReal) i))
          (((m ((c : Thread nD τ).loc main_arg2)) : S256x16.Idx → EReal) i) (((m ((c : Thread nD τ).loc main_arg3)) : S256x16x64.Idx → EReal) (ix3 (i 0) (i 1) k)) := by
    intro k
    rw [counts_total m c t h7 r cc k i hi0 hi1, blk2_apply m c t r cc i hi0 hi1,
      blk3_apply m c t r cc k (ix3 (i 0) (i 1) k) hi0 hi1 rfl]
  exact (out_eq m c t h7 r cc).trans (congrArg mean64 (Finset.sum_congr rfl fun k _ => key k))

/-- WHAT A ROW TILE'S LAST POINT WRITES BACK is the tile's block of the loss array. -/
theorem flushed_eq (t : Fin cfg0.N) (hf : (cfg0.win 4).flush t = true) :
    (dats m 0 c).flushed 4 t = ((cfg0.win 4).blk t).view.read (Elt Ideal) (lossArr m c) := by
  have h7 : t.val % 8 = 7 := (flush0_4 t).mp hf
  have hN : cfg0.N = 16 := N_0
  obtain ⟨-, -, -, -, -, -, -, -, -, -, -, e0, e1⟩ := idx_facts t
  show (cfg0.win 4).cut (grid0.coords t) ((dats m 0 c).after 4 t) = _
  rw [after0_4]
  funext j
  obtain ⟨r, cc, rfl⟩ : ∃ (r : Fin 128) (cc : Fin 16), j = ix2 r cc := ⟨j 0, j 1, eq_ix2 j⟩
  rw [View.read_apply]
  refine tile_loss m c t h7 r cc _ ?_ ?_
  · show win0_4.index t 0 * 128 + 1 * r.val = _; rw [e0]; omega
  · show win0_4.index t 1 * 16 + 1 * cc.val = _; rw [e1]; omega

/-- THE RESULT ARRAY after the run is the loss array: row `R` lies in row tile `R / 128`, whose last point `8·(R/128) + 7`
    writes the tile's block back. -/
theorem final_out : (dats m 0 c).arrAt 4 cfg0.N = lossArr m c :=
  (dats m 0 c).arrAt_eq_of_cover 4 (lossArr m c) (fun t hf => flushed_eq m c t hf) fun i => by
    have hN : cfg0.N = 16 := N_0
    have hi : (i 0).val < 256 := (i 0).isLt
    have hi1 : (i 1).val < 16 := (i 1).isLt
    have htN : 8 * ((i 0).val / 128) + 7 < cfg0.N := by omega
    obtain ⟨-, -, -, -, -, -, -, -, -, -, -, e0, e1⟩ := idx_facts ⟨8 * ((i 0).val / 128) + 7, htN⟩
    refine ⟨⟨8 * ((i 0).val / 128) + 7, htN⟩, (flush0_4 _).mpr (by show (8 * ((i 0).val / 128) + 7) % 8 = 7; omega), ?_⟩
    show i ∈ ((View.whole main_v1).slice (win0_4.rect ⟨8 * ((i 0).val / 128) + 7, htN⟩)).set
    rw [View.set_slice_whole, Rect.mem_set_unit]
    intro a
    match a with
    | ⟨0, _⟩ =>
      show win0_4.index ⟨8 * ((i 0).val / 128) + 7, htN⟩ 0 * 128 ≤ (i 0).val
        ∧ (i 0).val < win0_4.index ⟨8 * ((i 0).val / 128) + 7, htN⟩ 0 * 128 + 128
      rw [e0]; dsimp only; omega
    | ⟨1, _⟩ =>
      show win0_4.index ⟨8 * ((i 0).val / 128) + 7, htN⟩ 1 * 16 ≤ (i 1).val
        ∧ (i 1).val < win0_4.index ⟨8 * ((i 0).val / 128) + 7, htN⟩ 1 * 16 + 16
      rw [e1]; omega

/-- The host's last operations: the sum over the 256 rows over 256, the sum over the 16 channels over 16, times 1. -/
def tail {F : FTy → Type} [FloatOps F] (y : (⟨S256x16, .f32⟩ : BufTy).Contents (Elt F)) : (⟨S_, .f32⟩ : BufTy).Contents (Elt F) :=
  mulf (constant S_ .f32 0x3F800000#32) (Host.divf (Host.reduceAdd (Host.divf (Host.reduceAdd y (constant S_ .f32 0x00000000#32)
    reducesTo_S256x16_S16_d0 h_S_) (broadcastInDim S16 ![] bcast_S_S16 (constant S_ .f32 0x43800000#32)))
    (constant S_ .f32 0x00000000#32) reducesTo_S16_S_d0 h_S_) (constant S_ .f32 0x41800000#32))

/-- The program's result after the host's last operations is the tail of the loss array. -/
theorem tail_eq : Pipeline.afterTail₀ cfgs (dats m) 0 (V0 m) [hostOps1] c main_v7 = tail (lossArr m c) := by
  unfold Pipeline.afterTail₀
  show StableHlo.after hostOps1 _ (Proc.devRef .tc main_v7) = _
  after_results
  exact congrArg tail ((Pipeline.withArrays_arr spec0 launch0.win.arr_inj c _ _ 4).trans (final_out m c))

/-- THE RUN, READ: every weakly fair execution of the idealized kernel ends with its result at the tail of the loss array
    and its arguments unchanged. -/
theorem run : θ_run defs (onTc (τ := τ) (main (F := Ideal))) ⟨m, fun _ => 0, ρ⟩ fun r => ∀ c : Dev nD,
      r.2.mem ((c.tc : Thread nD τ).loc main_v7) = tail (lossArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v7 (Pipeline.mem_restRefs_of main_v7 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.KernelValue

end
-- ==== Proof.RefValue.lean ====
/-
  The reference, read index by index.

  Before its last three means the reference holds, at `(t, c)`, the mean over the bins of the deviation of the bin's count
  over the batch: `rowLoss` of the arguments (`v22_eq`).  What it returns is the tail — the mean over the 256 rows, the
  mean over the 16 channels, times one — of that array (`result_eq`).
-/
import proofs.«111479_j76802605187293_2_alg».proof.Proof.Gen.ReferenceIdeal.Read
import proofs.«111479_j76802605187293_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.HistSpec
open scoped BigOperators

/-- The reference's last operations: the sum over the 256 rows over 256, the sum over the 16 channels over 16, times 1. -/
def tail {F : FTy → Type} [FloatOps F] (y : (⟨S256x16, .f32⟩ : BufTy).Contents (Elt F)) : (⟨S_, .f32⟩ : BufTy).Contents (Elt F) :=
  mulf (constant S_ .f32 0x3F800000#32) (Host.divf (Host.reduceAdd (Host.divf (Host.reduceAdd y (constant S_ .f32 0x00000000#32)
    reducesTo_S256x16_S16_d0 h_S_) (broadcastInDim S16 ![] bcast_S_S16 (constant S_ .f32 0x43800000#32)))
    (constant S_ .f32 0x00000000#32) reducesTo_S16_S_d0 h_S_) (constant S_ .f32 0x41800000#32))

/-- The reference's result is the tail of its `[256,16]` stage. -/
theorem v28_eq_tail {F : FTy → Type} [FloatOps F] (x0 : (⟨S1024x256x16, .f32⟩ : BufTy).Contents (Elt F))
    (x1 : (⟨S256x16x64, .f32⟩ : BufTy).Contents (Elt F)) (x2 : (⟨S256x16, .f32⟩ : BufTy).Contents (Elt F))
    (x3 : (⟨S256x16x64, .f32⟩ : BufTy).Contents (Elt F)) :
    val_main_v28 (F := F) x0 x1 x2 x3 = tail (val_main_v22 (F := F) x0 x1 x2 x3) := rfl

/-- THE `[256,16]` STAGE is `rowLoss` of the arguments. -/
theorem v22_eq (x0 : (⟨S1024x256x16, .f32⟩ : BufTy).Contents (Elt Ideal)) (x1 : (⟨S256x16x64, .f32⟩ : BufTy).Contents (Elt Ideal))
    (x2 : (⟨S256x16, .f32⟩ : BufTy).Contents (Elt Ideal)) (x3 : (⟨S256x16x64, .f32⟩ : BufTy).Contents (Elt Ideal)) :
    val_main_v22 (F := Ideal) x0 x1 x2 x3 = rowLoss x0 x1 x2 x3 := by
  funext i
  simp only [val_main_v22_apply, val_main_v21_apply, val_main_v20_apply, val_main_v19_apply, val_main_v18_apply, val_main_v17_apply,
    val_main_v16_apply, val_main_v15_apply, val_main_v14_apply, val_main_v13_apply, val_main_v12_apply, val_main_v11_apply,
    val_main_v10_apply, val_main_v9_apply, val_main_v8_apply, val_main_v7_apply, val_main_v6_apply, val_main_v5_apply,
    val_main_v4_apply, val_main_v3_apply, val_main_v2_apply, val_main_v1_apply, val_main_v0_apply, val_main_cst_apply,
    val_main_cst_0_apply, val_main_cst_1_apply, val_main_cst_2_apply, val_main_cst_3_apply]
  have e1 : ∀ (k : Fin 64) (b : Fin 1024), idx_main_v0 (idx_main_v2 (idx_main_v12 (idx_main_v20 i k) b)) = ix3 b (i 0) (i 1) :=
    fun k b => funext fun a => Fin.ext (by match a with | ⟨0, _⟩ => rfl | ⟨1, _⟩ => rfl | ⟨2, _⟩ => rfl)
  have e2 : ∀ (k : Fin 64) (b : Fin 1024), idx_main_v1 (idx_main_v3 (idx_main_v12 (idx_main_v20 i k) b)) = ix3 (i 0) (i 1) k :=
    fun k b => funext fun a => Fin.ext (by match a with | ⟨0, _⟩ => rfl | ⟨1, _⟩ => rfl | ⟨2, _⟩ => rfl)
  have e3 : ∀ (k : Fin 64) (b : Fin 1024), idx_main_v6 (idx_main_v9 (idx_main_v12 (idx_main_v20 i k) b)) = i :=
    fun k b => funext fun a => Fin.ext (by match a with | ⟨0, _⟩ => rfl | ⟨1, _⟩ => rfl)
  have e4 : ∀ (k : Fin 64), idx_main_v15 (idx_main_v16 (idx_main_v20 i k)) = i :=
    fun k => funext fun a => Fin.ext (by match a with | ⟨0, _⟩ => rfl | ⟨1, _⟩ => rfl)
  have e5 : ∀ (k : Fin 64), idx_main_v20 i k = ix3 (i 0) (i 1) k :=
    fun k => funext fun a => Fin.ext (by match a with | ⟨0, _⟩ => rfl | ⟨1, _⟩ => rfl | ⟨2, _⟩ => rfl)
  simp only [e1, e2, e3, e4]
  simp only [e5]
  unfold rowLoss mean64 dev hit
  simp only [Ideal.ofBits_def, Ideal.ofBits_zero_f32, zero_add, Ideal.hostDivf_def, Ideal.divf_def, Ideal.hostAbsf_def]
  rfl

end Cert.ReferenceIdeal.RefValue

end
-- ==== Proof.lean ====
/-
  The histogram loss: a kernel against its reference, equal on the extended reals.

  Both programs compute, for each row `t` of 256 and channel `c` of 16, the mean over 64 bins of
  `|count(t,c,k) / 1024 / delta(t,c) − density(t,c,k)|`, where `count(t,c,k)` is the number of the batch's 1024 samples
  `x[b,t,c]` with `|x[b,t,c] − loc(t,c,k)| < delta(t,c)·½`; then the mean over the rows, the mean over the channels, times one.

  The reference takes the count as one sum over the batch.  The kernel transposes the samples, walks a grid of two row
  tiles by eight sample blocks, and for each block adds to a scratch accumulator the counts over the block's 128
  samples, eight rows at a time; at the last block of a row tile it turns the completed counts into the tile's losses,
  which the host then averages.  On the extended reals addition is commutative and associative, so eight partial sums of
  128 are the sum of 1024, and the indicator's two conversions (the comparison bit widened and read signed, or read
  unsigned) give the same 0 or 1: the two results are the same extended real, for every input.  The precondition is not
  used by the value argument.

  The frames of the two kernel programs are the generated ones; the reference's frame is its generated run with the
  result dropped; the ideal pass rewrote nothing, so `preserves` is `True`.
-/
import proofs.«111479_j76802605187293_2_alg».proof.Defs
import proofs.«111479_j76802605187293_2_alg».proof.Proof.Gen.Kernel
import proofs.«111479_j76802605187293_2_alg».proof.Proof.Gen.Kernel.Skeleton
import proofs.«111479_j76802605187293_2_alg».proof.Proof.Gen.Kernel.Loops
import proofs.«111479_j76802605187293_2_alg».proof.Proof.Gen.Kernel.Launch
import proofs.«111479_j76802605187293_2_alg».proof.Proof.Gen.Kernel.Points
import proofs.«111479_j76802605187293_2_alg».proof.Proof.Gen.Kernel.Frame
import proofs.«111479_j76802605187293_2_alg».proof.Proof.Gen.KernelIdeal
import proofs.«111479_j76802605187293_2_alg».proof.Proof.Gen.KernelIdeal.Skeleton
import proofs.«111479_j76802605187293_2_alg».proof.Proof.Gen.KernelIdeal.Loops
import proofs.«111479_j76802605187293_2_alg».proof.Proof.Gen.KernelIdeal.Launch
import proofs.«111479_j76802605187293_2_alg».proof.Proof.Gen.KernelIdeal.Points
import proofs.«111479_j76802605187293_2_alg».proof.Proof.Gen.KernelIdeal.Frame
import proofs.«111479_j76802605187293_2_alg».proof.Proof.Gen.ReferenceIdeal
import proofs.«111479_j76802605187293_2_alg».proof.Proof.Gen.ReferenceIdeal.Run
import proofs.«111479_j76802605187293_2_alg».proof.Proof.Gen.ReferenceIdeal.Read
import proofs.«111479_j76802605187293_2_alg».proof.Proof.Gen.Pre_finite_inputs
import proofs.«111479_j76802605187293_2_alg».proof.Proof.KernelValue
import proofs.«111479_j76802605187293_2_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- On the extended reals the kernel's result is the tail of the loss array of its arguments, and so is the reference's
    of arguments that agree: the two tails are the same operations. -/
theorem algebraic : Cert.algebraic_KernelIdeal_ReferenceIdeal := by
  intro m ρ m' ρ' _ hagree
  refine ⟨fun c => Cert.KernelIdeal.KernelValue.tail (Cert.KernelIdeal.KernelValue.lossArr m c),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.v28_eq_tail, Cert.ReferenceIdeal.RefValue.v22_eq,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
